-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x128x1 : Shape := ⟨3, ![50000, 128, 1]⟩
abbrev S50000x128x2 : Shape := ⟨3, ![50000, 128, 2]⟩

abbrev nBuf : Space → Nat
  | .hbm => 90
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128x1, .f32⟩
  | .hbm, ⟨88, _⟩ => ⟨S50000x128x1, .f32⟩
  | .hbm, ⟨89, _⟩ => ⟨S50000x128x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S50000x128_S50000x128x1_0_1 : S50000x128.BroadcastsInDim S50000x128x1 (![0, 1] : Fin 2 → Fin S50000x128x1.rank)
  concatenates_S50000x128x1_S50000x128x1_S50000x128x2_d2 : Shape.Concatenates [S50000x128x1, S50000x128x1] S50000x128x2 2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x128x1 : Shape := ⟨3, ![50000, 128, 1]⟩
abbrev S50000x128x2 : Shape := ⟨3, ![50000, 128, 2]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S50000, .i32⟩
  | 13 => ⟨S850000, .i32⟩
  | 14 => ⟨S850000, .i32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S850000x1, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S50000, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128x1, .f32⟩
  | 6 => ⟨S50000x128x1, .f32⟩
  | 7 => ⟨S50000x128x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S50000x128x1_0_1 : S50000x128.BroadcastsInDim S50000x128x1 (![0, 1] : Fin 2 → Fin S50000x128x1.rank)
  concatenates_S50000x128x1_S50000x128x1_S50000x128x2_d2 : Shape.Concatenates [S50000x128x1, S50000x128x1] S50000x128x2 2
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its result named.

  The program is ten segments: six stretches of host operations and four tiled kernel launches. Every unscoped buffer of a
  core is carried through them as one valuation per segment boundary (the launch memory, then what each stretch or launch
  leaves). The run below is the launch of those segments from any memory with zero counters: every weakly fair execution
  terminates, nothing faults, the seven argument arrays end as launched, and the result buffer ends at what the last
  boundary's valuation holds there. What that valuation holds, as a function of the arguments, is read in the modules
  that import this one.
-/
import proofs.«165142_j19851338842494_1_alg».proof.Proof.Gen.KernelIdeal.Frame

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last boundary's
    contents and the argument arrays as launched. -/
theorem run_value : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.Gcn

end
-- ==== Proof.Spec.lean ====
/-
  The two dense pieces of a graph-convolution layer as plain functions of arrays, entry by entry, on the extended reals.

  A layer of the network is  relu(Â (X W) + b):  a dense product X W, a sparse aggregation by Â (gathers and a
  scatter-add driven by the edge list, the same operations in both programs), and a dense epilogue: add the bias row to
  every row, keep the positive part. The two dense pieces are stated here once, over literal index types, so that what a
  tiled computation leaves in an array and what one whole-array operation computes can both be compared with them.
-/
import Idealize.ShloMosaic.PureOps.Ideal
import Idealize.ShloMosaic.Lib.ValueIdx

noncomputable section

namespace Cert.Gcn

open Idealize.ShloMosaic Idealize.ShloMosaic.ValueIdx

/-- The product of an [n, k] array by a [k, d] array: entry (p, q) is row p of A against column q of B. -/
def matProd {n k d : ℕ} (A : FVec Ideal (⟨2, ![n, k]⟩ : Shape) .f32) (B : FVec Ideal (⟨2, ![k, d]⟩ : Shape) .f32) :
    FVec Ideal (⟨2, ![n, d]⟩ : Shape) .f32 :=
  fun i => ∑ e : Fin k, A (ix2 (n0 := n) (i 0) e) * B (ix2 (n1 := d) e (i 1))

theorem matProd_apply {n k d : ℕ} (A : FVec Ideal (⟨2, ![n, k]⟩ : Shape) .f32) (B : FVec Ideal (⟨2, ![k, d]⟩ : Shape) .f32)
    (p : Fin n) (q : Fin d) : matProd A B (ix2 p q) = ∑ e : Fin k, A (ix2 p e) * B (ix2 e q) := rfl

/-- A row r added to every row of A, then the positive part: entry (p, q) is max (A (p, q) + r (0, q)) 0. -/
def biasRelu {n d : ℕ} (A : FVec Ideal (⟨2, ![n, d]⟩ : Shape) .f32) (r : FVec Ideal (⟨2, ![1, d]⟩ : Shape) .f32) :
    FVec Ideal (⟨2, ![n, d]⟩ : Shape) .f32 :=
  fun i => FloatOps.maximumf (FloatOps.addf (A i) (r (ix2 (0 : Fin 1) (n1 := d) (i 1)))) (FloatOps.ofBits .f32 0x00000000#32)

theorem biasRelu_apply {n d : ℕ} (A : FVec Ideal (⟨2, ![n, d]⟩ : Shape) .f32) (r : FVec Ideal (⟨2, ![1, d]⟩ : Shape) .f32)
    (p : Fin n) (q : Fin d) :
    biasRelu A r (ix2 p q) = FloatOps.maximumf (FloatOps.addf (A (ix2 p q)) (r (ix2 (0 : Fin 1) q))) (FloatOps.ofBits .f32 0x00000000#32) := rfl

end Cert.Gcn

end
-- ==== Proof.RefStages.lean ====
/-
  The reference's two layers, read as one function of the seven arguments.

  Each layer of the reference is  relu(Â (X W) + b):  the host's product X W, then the aggregation by the normalized
  adjacency Â (gather the source rows, weight each edge, scatter-add onto the target rows; self loops appended to the edge
  list), then the bias row added and the positive part taken. The edge bookkeeping (source and target lists with the
  self loops, the degree, its inverse square root, the edge weights) is computed by the same host operations in both
  programs and is never opened here: it enters as three arrays s, d, w. What is proved here: the host's product is the
  plain sum of products (matProd), the epilogue is biasRelu once the bias vector is laid out as a row, the second layer's
  recomputed bookkeeping is the first layer's, and so the reference's result is the function out below.
-/
import proofs.«165142_j19851338842494_1_alg».proof.Proof.Gen.ReferenceIdeal.Read
import proofs.«165142_j19851338842494_1_alg».proof.Proof.Spec

set_option maxRecDepth 16384

noncomputable section

namespace Cert.Gcn.Ref

open Cert.ReferenceIdeal Cert.ReferenceIdeal.Gen Cert.ReferenceIdeal.Read
open Idealize.ShloMosaic Idealize.ShloMosaic.TcCoe Idealize.ShloMosaic.ValueIdx

/-! ## The aggregation, as one function of the edge arrays and the node features -/

/-- The aggregation of node features h along the edges: gather row s(e) of h for every edge e (a negative index
    wrapped by the number of nodes first), scale it by the edge's weight w(e), and add it onto row d(e) of a zero array. -/
def agg (s d : (⟨S850000, .i32⟩ : BufTy).Contents (Elt Ideal)) (w : (⟨S850000, .f32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf (broadcastInDim S850000x128 ![0, 1] bcast_S850000x1_S850000x128_0_1 (broadcastInDim S850000x1 ![0] bcast_S850000_S850000x1_0 w))
      (Host.gather gather_S50000x128_S850000x1_S850000x128_1_0_n_n_0_1_1128 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))))

/-- The source list, the target list and the edge weights (self loops appended, symmetric normalization), as the
    reference computes them from the edge index and the raw weights. -/
abbrev src (x1 : (⟨S2x800000, .i32⟩ : BufTy).Contents (Elt Ideal)) : (⟨S850000, .i32⟩ : BufTy).Contents (Elt Ideal) := val_main_v6 (F := Ideal) x1
abbrev dst (x1 : (⟨S2x800000, .i32⟩ : BufTy).Contents (Elt Ideal)) : (⟨S850000, .i32⟩ : BufTy).Contents (Elt Ideal) := val_main_v7 (F := Ideal) x1
abbrev nrm (x1 : (⟨S2x800000, .i32⟩ : BufTy).Contents (Elt Ideal)) (x2 : (⟨S800000, .f32⟩ : BufTy).Contents (Elt Ideal)) : (⟨S850000, .f32⟩ : BufTy).Contents (Elt Ideal) := val_main_v32 (F := Ideal) x1 x2

variable (x0 : (⟨S50000x128, .f32⟩ : BufTy).Contents (Elt Ideal)) (x1 : (⟨S2x800000, .i32⟩ : BufTy).Contents (Elt Ideal)) (x2 : (⟨S800000, .f32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-- The first layer's aggregate is agg of the first product. -/
theorem v45_eq : val_main_v45 (F := Ideal) x0 x1 x2 x3 = agg (src x1) (dst x1) (nrm x1 x2) (val_main_v4 (F := Ideal) x0 x3) := rfl

/-- The second layer recomputes the edge bookkeeping by the same operations of the same arguments. -/
theorem src2_eq : val_main_v52 (F := Ideal) x1 = src x1 := rfl
theorem dst2_eq : val_main_v53 (F := Ideal) x1 = dst x1 := rfl
theorem nrm2_eq : val_main_v78 (F := Ideal) x1 x2 = nrm x1 x2 := rfl

/-- The second layer's aggregate is agg of the second product, over the second layer's own copies of the edge arrays. -/
theorem v91_eq' : val_main_v91 (F := Ideal) x0 x1 x2 x3 x4 x5
    = agg (val_main_v52 (F := Ideal) x1) (val_main_v53 (F := Ideal) x1) (val_main_v78 (F := Ideal) x1 x2) (val_main_v50 (F := Ideal) x0 x1 x2 x3 x4 x5) := rfl

theorem v91_eq : val_main_v91 (F := Ideal) x0 x1 x2 x3 x4 x5
    = agg (src x1) (dst x1) (nrm x1 x2) (val_main_v50 (F := Ideal) x0 x1 x2 x3 x4 x5) := by
  rw [v91_eq', src2_eq, dst2_eq, nrm2_eq]

/-! ## The dense pieces -/

/-- The host's product of a [50000, 128] array by a [128, 128] array is the plain sum of products. -/
theorem dot_eq (A : (⟨S50000x128, .f32⟩ : BufTy).Contents (Elt Ideal)) (B : (⟨S128x128, .f32⟩ : BufTy).Contents (Elt Ideal)) :
    val_main_v4 (F := Ideal) A B = matProd (n := 50000) (k := 128) (d := 128) A B := by
  funext i
  rw [val_main_v4_apply]
  show _ = ∑ e : Fin 128, A (ix2 (n0 := 50000) (i 0) e) * B (ix2 (n1 := 128) e (i 1))
  refine Finset.sum_congr rfl fun e _ => ?_
  have el : lidx_main_v4 i e = ix2 (n0 := 50000) (i 0) e := funext fun a => by
    match a with
    | ⟨0, _⟩ => rfl
    | ⟨1, _⟩ => rfl
  have er : ridx_main_v4 i e = ix2 (n1 := 128) e (i 1) := funext fun a => by
    match a with
    | ⟨0, _⟩ => rfl
    | ⟨1, _⟩ => rfl
  rw [el, er]

/-- The second layer's product, of the first layer's output. -/
theorem v50_eq : val_main_v50 (F := Ideal) x0 x1 x2 x3 x4 x5
    = matProd (n := 50000) (k := 128) (d := 128) (val_main_v49 (F := Ideal) x0 x1 x2 x3 x4) x5 :=
  dot_eq (val_main_v49 (F := Ideal) x0 x1 x2 x3 x4) x5

/-- The host's epilogue: the bias vector b made a row and repeated down the rows, added to A, then the maximum with a zero
    array, is biasRelu of A and any row r that holds b. -/
theorem epilogue_eq (A : (⟨S50000x128, .f32⟩ : BufTy).Contents (Elt Ideal)) (b : (⟨S128, .f32⟩ : BufTy).Contents (Elt Ideal))
    (r : FVec Ideal (⟨2, ![1, 128]⟩ : Shape) .f32) (hr : ∀ q : Fin 128, r (ix2 (0 : Fin 1) q) = b (ix1 q)) :
    maximumf (addf A (val_main_v47 (F := Ideal) b)) (val_main_call1_v0 (F := Ideal)) = biasRelu (n := 50000) (d := 128) A r := by
  funext i
  obtain ⟨p, q, rfl⟩ : ∃ (p : Fin 50000) (q : Fin 128), i = ix2 p q := ⟨i 0, i 1, eq_ix2 i⟩
  rw [biasRelu_apply, hr]
  have e47 : val_main_v47 (F := Ideal) b (ix2 p q) = b (ix1 q) := by
    rw [val_main_v47_apply, val_main_v46_apply]
    exact congrArg b (funext fun a => by
      match a with
      | ⟨0, _⟩ => rfl)
  have e0 : val_main_call1_v0 (F := Ideal) (ix2 p q) = FloatOps.ofBits (F := Ideal) .f32 0x00000000#32 := by
    rw [val_main_call1_v0_apply, val_main_call1_cst_apply]
  show FloatOps.maximumf (F := Ideal) (φ := .f32) (FloatOps.addf (F := Ideal) (φ := .f32) (A (ix2 p q)) (val_main_v47 (F := Ideal) b (ix2 p q)))
      (val_main_call1_v0 (F := Ideal) (ix2 p q)) = _
  rw [e47, e0]

variable (r1 r2 : FVec Ideal (⟨2, ![1, 128]⟩ : Shape) .f32)

/-- One layer: product, aggregation, bias and positive part. -/
def layer (X : (⟨S50000x128, .f32⟩ : BufTy).Contents (Elt Ideal)) (W : (⟨S128x128, .f32⟩ : BufTy).Contents (Elt Ideal)) (r : FVec Ideal (⟨2, ![1, 128]⟩ : Shape) .f32) :
    (⟨S50000x128, .f32⟩ : BufTy).Contents (Elt Ideal) :=
  biasRelu (n := 50000) (d := 128) (agg (src x1) (dst x1) (nrm x1 x2) (matProd (n := 50000) (k := 128) (d := 128) X W)) r

/-- The first layer's output. -/
theorem v49_eq (h1 : ∀ q : Fin 128, r1 (ix2 (0 : Fin 1) q) = x4 (ix1 q)) :
    val_main_v49 (F := Ideal) x0 x1 x2 x3 x4 = layer x1 x2 x0 x3 r1 := by
  unfold val_main_v49 val_main_v48
  rw [epilogue_eq _ x4 r1 h1, v45_eq, dot_eq]
  rfl

/-- The second layer lays its bias vector out, and builds its zero array, by the same operations as the first. -/
theorem row2_eq : val_main_v93 (F := Ideal) x6 = val_main_v47 (F := Ideal) x6 := rfl
theorem zero2_eq : val_main_call3_v0 (F := Ideal) = val_main_call1_v0 (F := Ideal) := rfl

/-- The second layer's output. -/
theorem v95_eq (h1 : ∀ q : Fin 128, r1 (ix2 (0 : Fin 1) q) = x4 (ix1 q)) (h2 : ∀ q : Fin 128, r2 (ix2 (0 : Fin 1) q) = x6 (ix1 q)) :
    val_main_v95 (F := Ideal) x0 x1 x2 x3 x4 x5 x6 = layer x1 x2 (layer x1 x2 x0 x3 r1) x5 r2 := by
  unfold val_main_v95 val_main_v94
  rw [row2_eq, zero2_eq, epilogue_eq _ x6 r2 h2, v91_eq, v50_eq, v49_eq x0 x1 x2 x3 x4 r1 h1]
  rfl

/-- The whole result: the two layers' outputs laid side by side on a new last axis. -/
def out : (⟨S50000x128x2, .f32⟩ : BufTy).Contents (Elt Ideal) :=
  concatenate S50000x128x2 2
    [⟨S50000x128x1, broadcastInDim S50000x128x1 ![0, 1] bcast_S50000x128_S50000x128x1_0_1 (layer x1 x2 x0 x3 r1)⟩,
     ⟨S50000x128x1, broadcastInDim S50000x128x1 ![0, 1] bcast_S50000x128_S50000x128x1_0_1 (layer x1 x2 (layer x1 x2 x0 x3 r1) x5 r2)⟩]
    concatenates_S50000x128x1_S50000x128x1_S50000x128x2_d2

/-- The reference's result is out, for any two rows holding the two bias vectors. -/
theorem v98_eq (h1 : ∀ q : Fin 128, r1 (ix2 (0 : Fin 1) q) = x4 (ix1 q)) (h2 : ∀ q : Fin 128, r2 (ix2 (0 : Fin 1) q) = x6 (ix1 q)) :
    val_main_v98 (F := Ideal) x0 x1 x2 x3 x4 x5 x6 = out x0 x1 x2 x3 x5 r1 r2 := by
  unfold val_main_v98 val_main_v96 val_main_v97 out
  rw [v49_eq x0 x1 x2 x3 x4 r1 h1, v95_eq x0 x1 x2 x3 x4 x5 x6 r1 r2 h1 h2]

end Cert.Gcn.Ref

end
-- ==== Proof.EdgeArrays.lean ====
/-
  The edge arrays of the graph, which both aggregations read, are the reference's.

  Before its first launch the program turns the edge index and the raw edge weights into three arrays over the
  800000 edges followed by 50000 self loops: the source list, the target list, and the normalized weights
  dinv(source) * w * dinv(target), where w is the raw weight (one on a self loop), the degree of a node is the
  scatter-add of w onto the targets, and dinv is its inverse square root where the degree is positive and zero elsewhere.
  The reference computes the same three arrays by the same operations. The three host stretches that do it are read
  here one at a time, each at an ARBITRARY valuation V of the buffers (so that a stretch's result is stated over V's
  entries and nothing below them is opened), and then instantiated along the program's fold from the launch memory.
-/
import proofs.«165142_j19851338842494_1_alg».proof.Proof.Gen.KernelIdeal.Frame
import proofs.«165142_j19851338842494_1_alg».proof.Proof.RefStages
import Idealize.ShloMosaic.Lib.StableHlo.Run
import Idealize.ShloMosaic.Lib.Pipeline.Value
import Idealize.ShloMosaic.Lib.ValueIdx

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- A buffer that no operation of a host stretch writes keeps its contents: the goal
    after ops V b = V b  is reduced to one inequality of references per operation, each decided. -/
macro "keeps" : tactic => `(tactic| (
  refine StableHlo.after_of_forall_not_mem _ _ (List.forall_iff_forall_mem.mp ?_)
  simp only [hostOps0, hostOps0_1, hostOps0_2, hostOps1, hostOps3, hostOps4, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The three stretches, each from an arbitrary valuation -/

section Stretches

variable (V : Valuation τ sig (Elt Ideal))

set_option maxHeartbeats 20000000

/-- The first stretch: the source list is the edge index's first row followed by the nodes. -/
theorem s0_src : StableHlo.after hostOps0 V (Proc.devRef .tc main_v5) = Cert.ReferenceIdeal.Read.val_main_v6 (F := Ideal) (V (Proc.devRef .tc main_arg1)) := by
  after_results
  rfl
/-- The target list is its second row followed by the nodes. -/
theorem s0_dst : StableHlo.after hostOps0 V (Proc.devRef .tc main_v6) = Cert.ReferenceIdeal.Read.val_main_v7 (F := Ideal) (V (Proc.devRef .tc main_arg1)) := by
  after_results
  rfl
/-- The raw weights are the given ones followed by ones. -/
theorem s0_wts : StableHlo.after hostOps0 V (Proc.devRef .tc main_v8) = Cert.ReferenceIdeal.Read.val_main_v9 (F := Ideal) (V (Proc.devRef .tc main_arg2)) := by
  after_results
  rfl
/-- Where the degree (the raw weights scatter-added onto the targets) is positive. -/
theorem s0_pos : StableHlo.after hostOps0 V (Proc.devRef .tc main_v13) = Cert.ReferenceIdeal.Read.val_main_v14 (F := Ideal) (V (Proc.devRef .tc main_arg1)) (V (Proc.devRef .tc main_arg2)) := by
  after_results
  rfl
/-- The degree's inverse square root. -/
theorem s0_rsq : StableHlo.after hostOps0 V (Proc.devRef .tc main_v14) = Cert.ReferenceIdeal.Read.val_main_v15 (F := Ideal) (V (Proc.devRef .tc main_arg1)) (V (Proc.devRef .tc main_arg2)) := by
  after_results
  rfl
/-- The zero that stands where the degree is not positive. -/
theorem s0_zero : StableHlo.after hostOps0 V (Proc.devRef .tc main_cst_2) = Cert.ReferenceIdeal.Read.val_main_cst_2 (F := Ideal) := by
  after_results
  rfl

/-- The second stretch selects the inverse square root where the degree is positive, zero elsewhere. -/
theorem s1_dinv : StableHlo.after hostOps0_1 V (Proc.devRef .tc main_v15)
    = select (V (Proc.devRef .tc main_v13)) (V (Proc.devRef .tc main_v14)) (broadcastInDim S50000 ![] bcast_S_S50000 (id (V (Proc.devRef .tc main_cst_2)))) := by
  after_results
  rfl

/-- The third stretch multiplies, edge by edge, dinv at the source, the raw weight, and dinv at the target (an index read
    signed, a negative one wrapped by the number of nodes, as the gather's start). -/
theorem s2_nrm : StableHlo.after hostOps0_2 V (Proc.devRef .tc main_v31)
    = (mulf (F := Ideal) (mulf (F := Ideal) (Host.gather gather_S50000_S850000x1_S850000_n_0_n_n_0_1_1 ((V (Proc.devRef .tc main_v15)) : FVec Ideal S50000 .f32)
        (broadcastInDim S850000x1 ![0] bcast_S850000_S850000x1_0
        (select (cmpi .slt (V (Proc.devRef .tc main_v5)) (broadcastInDim S850000 ![] bcast_S_S850000 (constantI S_ 32 0#32)))
          (addi (V (Proc.devRef .tc main_v5)) (broadcastInDim S850000 ![] bcast_S_S850000 (constantI S_ 32 50000#32))) (V (Proc.devRef .tc main_v5))))) ((V (Proc.devRef .tc main_v8)) : FVec Ideal S850000 .f32))
      (Host.gather gather_S50000_S850000x1_S850000_n_0_n_n_0_1_1 ((V (Proc.devRef .tc main_v15)) : FVec Ideal S50000 .f32)
        (broadcastInDim S850000x1 ![0] bcast_S850000_S850000x1_0
        (select (cmpi .slt (V (Proc.devRef .tc main_v6)) (broadcastInDim S850000 ![] bcast_S_S850000 (constantI S_ 32 0#32)))
          (addi (V (Proc.devRef .tc main_v6)) (broadcastInDim S850000 ![] bcast_S_S850000 (constantI S_ 32 50000#32))) (V (Proc.devRef .tc main_v6))))) : FVec Ideal S850000 .f32) := by
  after_results_simp

end Stretches

/-! ## Along the program's fold -/

variable (m : (ℓ : Loc nD τ sig) → Buf (Elt Ideal) ℓ) (ρ : Dev nD → PrngReg) (c : Dev nD)

theorem W1_src : W1 m ρ c (Proc.devRef .tc main_v5) = Ref.src (m ((c : Thread nD τ).loc main_arg1)) := s0_src (W0 m ρ c)
theorem W1_dst : W1 m ρ c (Proc.devRef .tc main_v6) = Ref.dst (m ((c : Thread nD τ).loc main_arg1)) := s0_dst (W0 m ρ c)
theorem W1_wts : W1 m ρ c (Proc.devRef .tc main_v8) = Cert.ReferenceIdeal.Read.val_main_v9 (F := Ideal) (m ((c : Thread nD τ).loc main_arg2)) := s0_wts (W0 m ρ c)
theorem W1_pos : W1 m ρ c (Proc.devRef .tc main_v13) = Cert.ReferenceIdeal.Read.val_main_v14 (F := Ideal) (m ((c : Thread nD τ).loc main_arg1)) (m ((c : Thread nD τ).loc main_arg2)) := s0_pos (W0 m ρ c)
theorem W1_rsq : W1 m ρ c (Proc.devRef .tc main_v14) = Cert.ReferenceIdeal.Read.val_main_v15 (F := Ideal) (m ((c : Thread nD τ).loc main_arg1)) (m ((c : Thread nD τ).loc main_arg2)) := s0_rsq (W0 m ρ c)
theorem W1_zero : W1 m ρ c (Proc.devRef .tc main_cst_2) = Cert.ReferenceIdeal.Read.val_main_cst_2 (F := Ideal) := s0_zero (W0 m ρ c)

theorem W2_src : W2 m ρ c (Proc.devRef .tc main_v5) = Ref.src (m ((c : Thread nD τ).loc main_arg1)) := (by keeps : W2 m ρ c (Proc.devRef .tc main_v5) = W1 m ρ c (Proc.devRef .tc main_v5)).trans (W1_src m ρ c)
theorem W2_dst : W2 m ρ c (Proc.devRef .tc main_v6) = Ref.dst (m ((c : Thread nD τ).loc main_arg1)) := (by keeps : W2 m ρ c (Proc.devRef .tc main_v6) = W1 m ρ c (Proc.devRef .tc main_v6)).trans (W1_dst m ρ c)
theorem W2_wts : W2 m ρ c (Proc.devRef .tc main_v8) = Cert.ReferenceIdeal.Read.val_main_v9 (F := Ideal) (m ((c : Thread nD τ).loc main_arg2)) := (by keeps : W2 m ρ c (Proc.devRef .tc main_v8) = W1 m ρ c (Proc.devRef .tc main_v8)).trans (W1_wts m ρ c)

theorem W2_dinv : W2 m ρ c (Proc.devRef .tc main_v15) = Cert.ReferenceIdeal.Read.val_main_v16 (F := Ideal) (m ((c : Thread nD τ).loc main_arg1)) (m ((c : Thread nD τ).loc main_arg2)) := by
  refine (s1_dinv (W1 m ρ c)).trans ?_
  rw [W1_pos, W1_rsq, W1_zero]
  rfl

/-- The source list at the first launch. -/
theorem src_eq : W3 m ρ c (Proc.devRef .tc main_v5) = Ref.src (m ((c : Thread nD τ).loc main_arg1)) :=
  (by keeps : W3 m ρ c (Proc.devRef .tc main_v5) = W2 m ρ c (Proc.devRef .tc main_v5)).trans (W2_src m ρ c)

/-- The target list at the first launch. -/
theorem dst_eq : W3 m ρ c (Proc.devRef .tc main_v6) = Ref.dst (m ((c : Thread nD τ).loc main_arg1)) :=
  (by keeps : W3 m ρ c (Proc.devRef .tc main_v6) = W2 m ρ c (Proc.devRef .tc main_v6)).trans (W2_dst m ρ c)

/-- The normalized weights at the first launch. -/
theorem nrm_eq : W3 m ρ c (Proc.devRef .tc main_v31) = Ref.nrm (m ((c : Thread nD τ).loc main_arg1)) (m ((c : Thread nD τ).loc main_arg2)) := by
  refine (s2_nrm (W2 m ρ c)).trans ?_
  rw [W2_dinv, W2_src, W2_dst, W2_wts]
  rfl

end Cert.Gcn

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.HostWalk.lean ====
/-
  What the idealized kernel leaves in its result buffer, as a function of the seven arguments.

  The program's buffers are followed from the launch through its ten segments. A host stretch rewrites the buffers its
  operations write and leaves the rest; a tiled launch rewrites its output array and leaves the rest, its input arrays
  included. So each array a later segment reads is traced back to the segment that wrote it:
    the edge arrays (source list, target list, edge weights) are written once, before the first launch, and read by both
      aggregations;
    the first launch's output is the product of the node features by the first weights; the stretch after it aggregates
      it along the edges and lays the first bias vector out as a row; the second launch adds the row and takes the positive
      part: the first layer's output, which is both an input of the third launch and, at the very end, half of the result;
    the third and fourth launches and the stretch between them are the second layer over the first layer's output;
    the last stretch lays the two outputs side by side.
  The four launches enter through the hypotheses arr0 .. arr3 (what a launch leaves in its output array is the product, or
  the bias epilogue, of its input arrays as it finds them); the modules that prove them are independent of this one.
-/
import proofs.«165142_j19851338842494_1_alg».proof.Proof.Gen.KernelIdeal.Frame
import proofs.«165142_j19851338842494_1_alg».proof.Proof.EdgeArrays
import proofs.«165142_j19851338842494_1_alg».proof.Proof.LibBiasRow
import Idealize.ShloMosaic.Lib.StableHlo.Run
import Idealize.ShloMosaic.Lib.Pipeline.Value
import Idealize.ShloMosaic.Lib.ValueIdx

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The arguments, where a segment reads them -/

/-- At the first launch every argument still holds its launch contents: the three stretches before it write none. -/
theorem W3_arg0 : W3 m ρ c (Proc.devRef .tc main_arg0) = m ((c : Thread nD τ).loc main_arg0) :=
  calc W3 m ρ c (Proc.devRef .tc main_arg0)
    _ = W2 m ρ c (Proc.devRef .tc main_arg0) := by keeps
    _ = W1 m ρ c (Proc.devRef .tc main_arg0) := by keeps
    _ = W0 m ρ c (Proc.devRef .tc main_arg0) := by keeps
    _ = m ((c : Thread nD τ).loc main_arg0) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by keeps
    _ = W1 m ρ c (Proc.devRef .tc main_arg3) := by keeps
    _ = W0 m ρ c (Proc.devRef .tc main_arg3) := by keeps
    _ = m ((c : Thread nD τ).loc main_arg3) := rfl
theorem W3_arg4 : W3 m ρ c (Proc.devRef .tc main_arg4) = m ((c : Thread nD τ).loc main_arg4) :=
  calc W3 m ρ c (Proc.devRef .tc main_arg4)
    _ = W2 m ρ c (Proc.devRef .tc main_arg4) := by keeps
    _ = W1 m ρ c (Proc.devRef .tc main_arg4) := by keeps
    _ = W0 m ρ c (Proc.devRef .tc main_arg4) := by keeps
    _ = m ((c : Thread nD τ).loc main_arg4) := rfl
theorem W3_arg5 : W3 m ρ c (Proc.devRef .tc main_arg5) = m ((c : Thread nD τ).loc main_arg5) :=
  calc W3 m ρ c (Proc.devRef .tc main_arg5)
    _ = W2 m ρ c (Proc.devRef .tc main_arg5) := by keeps
    _ = W1 m ρ c (Proc.devRef .tc main_arg5) := by keeps
    _ = W0 m ρ c (Proc.devRef .tc main_arg5) := by keeps
    _ = m ((c : Thread nD τ).loc main_arg5) := rfl
theorem W3_arg6 : W3 m ρ c (Proc.devRef .tc main_arg6) = m ((c : Thread nD τ).loc main_arg6) :=
  calc W3 m ρ c (Proc.devRef .tc main_arg6)
    _ = W2 m ρ c (Proc.devRef .tc main_arg6) := by keeps
    _ = W1 m ρ c (Proc.devRef .tc main_arg6) := by keeps
    _ = W0 m ρ c (Proc.devRef .tc main_arg6) := by keeps
    _ = m ((c : Thread nD τ).loc main_arg6) := rfl

/-! ## The edge arrays: written before the first launch, unchanged until the second aggregation reads them -/

/-- The source list. -/
theorem W7_src : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by keeps
    _ = W3 m ρ c (Proc.devRef .tc main_v5) := W4_of_ne m ρ c main_v5 (by decide)
theorem W4_src : W4 m ρ c (Proc.devRef .tc main_v5) = W3 m ρ c (Proc.devRef .tc main_v5) := W4_of_ne m ρ c main_v5 (by decide)
/-- The target list. -/
theorem W7_dst : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps
    _ = W3 m ρ c (Proc.devRef .tc main_v6) := W4_of_ne m ρ c main_v6 (by decide)
theorem W4_dst : W4 m ρ c (Proc.devRef .tc main_v6) = W3 m ρ c (Proc.devRef .tc main_v6) := W4_of_ne m ρ c main_v6 (by decide)
/-- The edge weights. -/
theorem W7_nrm : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by keeps
    _ = W3 m ρ c (Proc.devRef .tc main_v31) := W4_of_ne m ρ c main_v31 (by decide)
theorem W4_nrm : W4 m ρ c (Proc.devRef .tc main_v31) = W3 m ρ c (Proc.devRef .tc main_v31) := W4_of_ne m ρ c main_v31 (by decide)

/-! ## What the four launches leave, as hypotheses -/

/-- A launch's output array after its last tile, from its input arrays as the launch finds them (V): the two products and
    the two bias epilogues. -/
structure Launches : Prop where
  arr0 : ∀ (V : (c : Dev nD) → (b : Ref sig .tc) → Buf (Elt Ideal) ((c : Thread nD τ).loc b)) (c : Dev nD),
    (dat0 (F := Ideal) V c).arrAt 2 cfg0.N = matProd (n := 50000) (k := 128) (d := 128) (V c main_arg0) (V c main_arg3)
  arr1 : ∀ (V : (c : Dev nD) → (b : Ref sig .tc) → Buf (Elt Ideal) ((c : Thread nD τ).loc b)) (c : Dev nD),
    (dat1 (F := Ideal) V c).arrAt 2 cfg1.N = biasRelu (n := 50000) (d := 128) (V c main_v45) (V c main_v46)
  arr2 : ∀ (V : (c : Dev nD) → (b : Ref sig .tc) → Buf (Elt Ideal) ((c : Thread nD τ).loc b)) (c : Dev nD),
    (dat2 (F := Ideal) V c).arrAt 2 cfg2.N = matProd (n := 50000) (k := 128) (d := 128) (V c main_v47) (V c main_arg5)
  arr3 : ∀ (V : (c : Dev nD) → (b : Ref sig .tc) → Buf (Elt Ideal) ((c : Thread nD τ).loc b)) (c : Dev nD),
    (dat3 (F := Ideal) V c).arrAt 2 cfg3.N = biasRelu (n := 50000) (d := 128) (V c main_v61) (V c main_v62)

section Walk

/-! ## The first layer -/

/-- The first launch leaves the product of the node features by the first weights. -/
theorem prod1 (hl : Launches) : W4 m ρ c (Proc.devRef .tc main_v32) = (matProd (n := 50000) (k := 128) (d := 128) (m ((c : Thread nD τ).loc main_arg0)) (m ((c : Thread nD τ).loc main_arg3))) := by
  refine (W4_arr m ρ c 2).trans ((hl.arr0 (V3 m ρ) c).trans ?_)
  show matProd (n := 50000) (k := 128) (d := 128) (W3 m ρ c (Proc.devRef .tc main_arg0)) (W3 m ρ c (Proc.devRef .tc main_arg3)) = _
  rw [W3_arg0, W3_arg3]

set_option maxHeartbeats 4000000 in
/-- The stretch after it aggregates that product along the edges. -/
theorem agg1 (hl : Launches) : W5 m ρ c (Proc.devRef .tc main_v45) = Ref.agg (Ref.src (m ((c : Thread nD τ).loc main_arg1))) (Ref.dst (m ((c : Thread nD τ).loc main_arg1))) (Ref.nrm (m ((c : Thread nD τ).loc main_arg1)) (m ((c : Thread nD τ).loc main_arg2))) (matProd (n := 50000) (k := 128) (d := 128) (m ((c : Thread nD τ).loc main_arg0)) (m ((c : Thread nD τ).loc main_arg3))) := by
  have e : W5 m ρ c (Proc.devRef .tc main_v45) = Ref.agg (W4 m ρ c (Proc.devRef .tc main_v5)) (W4 m ρ c (Proc.devRef .tc main_v6)) (W4 m ρ c (Proc.devRef .tc main_v31)) (W4 m ρ c (Proc.devRef .tc main_v32)) := by
    show StableHlo.after hostOps1 (W4 m ρ c) (Proc.devRef .tc main_v45) = _
    after_results_simp
    rfl
  rw [e, W4_src, W4_dst, W4_nrm, src_eq, dst_eq, nrm_eq, prod1 m ρ c hl]

/-- and lays the first bias vector out as a row. -/
theorem row1 : W5 m ρ c (Proc.devRef .tc main_v46) = (shapeCast S1x128 (m ((c : Thread nD τ).loc main_arg4)) shapeCasts_S128_S1x128) := by
  have e : W5 m ρ c (Proc.devRef .tc main_v46) = shapeCast S1x128 (W4 m ρ c (Proc.devRef .tc main_arg4)) shapeCasts_S128_S1x128 := by
    show StableHlo.after hostOps1 (W4 m ρ c) (Proc.devRef .tc main_v46) = _
    after_results
    rfl
  rw [e, W4_of_ne m ρ c main_arg4 (by decide), W3_arg4]

/-- The second launch leaves the first layer's output. -/
theorem out1 (hl : Launches) : W6 m ρ c (Proc.devRef .tc main_v47) = (Ref.layer (m ((c : Thread nD τ).loc main_arg1)) (m ((c : Thread nD τ).loc main_arg2)) (m ((c : Thread nD τ).loc main_arg0)) (m ((c : Thread nD τ).loc main_arg3)) (shapeCast S1x128 (m ((c : Thread nD τ).loc main_arg4)) shapeCasts_S128_S1x128)) := by
  refine (W6_arr m ρ c 2).trans ((hl.arr1 (V5 m ρ) c).trans ?_)
  show biasRelu (n := 50000) (d := 128) (W5 m ρ c (Proc.devRef .tc main_v45)) (W5 m ρ c (Proc.devRef .tc main_v46)) = _
  rw [agg1 m ρ c hl, row1]
  rfl

/-! ## The second layer -/

/-- The second weights reach the third launch as launched. -/
theorem W6_arg5 : W6 m ρ c (Proc.devRef .tc main_arg5) = (m ((c : Thread nD τ).loc main_arg5)) :=
  calc W6 m ρ c (Proc.devRef .tc main_arg5)
    _ = W5 m ρ c (Proc.devRef .tc main_arg5) := W6_of_ne m ρ c main_arg5 (by decide)
    _ = W4 m ρ c (Proc.devRef .tc main_arg5) := by keeps
    _ = W3 m ρ c (Proc.devRef .tc main_arg5) := W4_of_ne m ρ c main_arg5 (by decide)
    _ = (m ((c : Thread nD τ).loc main_arg5)) := W3_arg5 m ρ c

/-- The third launch leaves the product of the first layer's output by the second weights. -/
theorem prod2 (hl : Launches) : W7 m ρ c (Proc.devRef .tc main_v48) = (matProd (n := 50000) (k := 128) (d := 128) (Ref.layer (m ((c : Thread nD τ).loc main_arg1)) (m ((c : Thread nD τ).loc main_arg2)) (m ((c : Thread nD τ).loc main_arg0)) (m ((c : Thread nD τ).loc main_arg3)) (shapeCast S1x128 (m ((c : Thread nD τ).loc main_arg4)) shapeCasts_S128_S1x128)) (m ((c : Thread nD τ).loc main_arg5))) := by
  refine (W7_arr m ρ c 2).trans ((hl.arr2 (V6 m ρ) c).trans ?_)
  show matProd (n := 50000) (k := 128) (d := 128) (W6 m ρ c (Proc.devRef .tc main_v47)) (W6 m ρ c (Proc.devRef .tc main_arg5)) = _
  rw [out1 m ρ c hl, W6_arg5]

set_option maxHeartbeats 4000000 in
/-- The stretch after it aggregates that product along the same edges. -/
theorem agg2 (hl : Launches) : W8 m ρ c (Proc.devRef .tc main_v61) = Ref.agg (Ref.src (m ((c : Thread nD τ).loc main_arg1))) (Ref.dst (m ((c : Thread nD τ).loc main_arg1))) (Ref.nrm (m ((c : Thread nD τ).loc main_arg1)) (m ((c : Thread nD τ).loc main_arg2))) (matProd (n := 50000) (k := 128) (d := 128) (Ref.layer (m ((c : Thread nD τ).loc main_arg1)) (m ((c : Thread nD τ).loc main_arg2)) (m ((c : Thread nD τ).loc main_arg0)) (m ((c : Thread nD τ).loc main_arg3)) (shapeCast S1x128 (m ((c : Thread nD τ).loc main_arg4)) shapeCasts_S128_S1x128)) (m ((c : Thread nD τ).loc main_arg5))) := by
  have e : W8 m ρ c (Proc.devRef .tc main_v61) = Ref.agg (W7 m ρ c (Proc.devRef .tc main_v5)) (W7 m ρ c (Proc.devRef .tc main_v6)) (W7 m ρ c (Proc.devRef .tc main_v31)) (W7 m ρ c (Proc.devRef .tc main_v48)) := by
    show StableHlo.after hostOps3 (W7 m ρ c) (Proc.devRef .tc main_v61) = _
    after_results_simp
    rfl
  rw [e, W7_src, W7_dst, W7_nrm, src_eq, dst_eq, nrm_eq, prod2 m ρ c hl]

/-- The second bias vector reaches that stretch as launched, -/
theorem W7_arg6 : W7 m ρ c (Proc.devRef .tc main_arg6) = (m ((c : Thread nD τ).loc main_arg6)) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by keeps
    _ = W3 m ρ c (Proc.devRef .tc main_arg6) := W4_of_ne m ρ c main_arg6 (by decide)
    _ = (m ((c : Thread nD τ).loc main_arg6)) := W3_arg6 m ρ c

/-- which lays it out as a row. -/
theorem row2 : W8 m ρ c (Proc.devRef .tc main_v62) = (shapeCast S1x128 (m ((c : Thread nD τ).loc main_arg6)) shapeCasts_S128_S1x128) := by
  have e : W8 m ρ c (Proc.devRef .tc main_v62) = shapeCast S1x128 (W7 m ρ c (Proc.devRef .tc main_arg6)) shapeCasts_S128_S1x128 := by
    show StableHlo.after hostOps3 (W7 m ρ c) (Proc.devRef .tc main_v62) = _
    after_results
    rfl
  rw [e, W7_arg6]

/-- The fourth launch leaves the second layer's output. -/
theorem out2 (hl : Launches) : W9 m ρ c (Proc.devRef .tc main_v63) = (Ref.layer (m ((c : Thread nD τ).loc main_arg1)) (m ((c : Thread nD τ).loc main_arg2)) (Ref.layer (m ((c : Thread nD τ).loc main_arg1)) (m ((c : Thread nD τ).loc main_arg2)) (m ((c : Thread nD τ).loc main_arg0)) (m ((c : Thread nD τ).loc main_arg3)) (shapeCast S1x128 (m ((c : Thread nD τ).loc main_arg4)) shapeCasts_S128_S1x128)) (m ((c : Thread nD τ).loc main_arg5)) (shapeCast S1x128 (m ((c : Thread nD τ).loc main_arg6)) shapeCasts_S128_S1x128)) := by
  refine (W9_arr m ρ c 2).trans ((hl.arr3 (V8 m ρ) c).trans ?_)
  show biasRelu (n := 50000) (d := 128) (W8 m ρ c (Proc.devRef .tc main_v61)) (W8 m ρ c (Proc.devRef .tc main_v62)) = _
  rw [agg2 m ρ c hl, row2]
  rfl

/-- The first layer's output is still in its buffer at the end: the third launch only reads it, and nothing after writes it. -/
theorem out1_kept (hl : Launches) : W9 m ρ c (Proc.devRef .tc main_v47) = (Ref.layer (m ((c : Thread nD τ).loc main_arg1)) (m ((c : Thread nD τ).loc main_arg2)) (m ((c : Thread nD τ).loc main_arg0)) (m ((c : Thread nD τ).loc main_arg3)) (shapeCast S1x128 (m ((c : Thread nD τ).loc main_arg4)) shapeCasts_S128_S1x128)) :=
  calc W9 m ρ c (Proc.devRef .tc main_v47)
    _ = W8 m ρ c (Proc.devRef .tc main_v47) := W9_of_ne m ρ c main_v47 (by decide)
    _ = W7 m ρ c (Proc.devRef .tc main_v47) := by keeps
    _ = W6 m ρ c (Proc.devRef .tc main_v47) := (W7_arr m ρ c 0).trans (((dat2 (V6 m ρ) c).arrAt_in 0 rfl _).trans (A_eq2 (V6 m ρ) c 0))
    _ = (Ref.layer (m ((c : Thread nD τ).loc main_arg1)) (m ((c : Thread nD τ).loc main_arg2)) (m ((c : Thread nD τ).loc main_arg0)) (m ((c : Thread nD τ).loc main_arg3)) (shapeCast S1x128 (m ((c : Thread nD τ).loc main_arg4)) shapeCasts_S128_S1x128)) := out1 m ρ c hl

/-! ## The result -/

/-- The last stretch lays the two layers' outputs side by side: the kernel's result is the reference's function of the
    arguments, with the two bias vectors read as rows. -/
theorem result_out (hl : Launches) : W10 m ρ c (Proc.devRef .tc main_v66) = Ref.out (m ((c : Thread nD τ).loc main_arg0)) (m ((c : Thread nD τ).loc main_arg1)) (m ((c : Thread nD τ).loc main_arg2)) (m ((c : Thread nD τ).loc main_arg3)) (m ((c : Thread nD τ).loc main_arg5)) (shapeCast S1x128 (m ((c : Thread nD τ).loc main_arg4)) shapeCasts_S128_S1x128) (shapeCast S1x128 (m ((c : Thread nD τ).loc main_arg6)) shapeCasts_S128_S1x128) := by
  have e : W10 m ρ c (Proc.devRef .tc main_v66) = concatenate S50000x128x2 2
      [⟨S50000x128x1, broadcastInDim S50000x128x1 ![0, 1] bcast_S50000x128_S50000x128x1_0_1 (W9 m ρ c (Proc.devRef .tc main_v47))⟩,
       ⟨S50000x128x1, broadcastInDim S50000x128x1 ![0, 1] bcast_S50000x128_S50000x128x1_0_1 (W9 m ρ c (Proc.devRef .tc main_v63))⟩]
      concatenates_S50000x128x1_S50000x128x1_S50000x128x2_d2 := by
    show StableHlo.after hostOps4 (W9 m ρ c) (Proc.devRef .tc main_v66) = _
    after_results
  rw [e, out1_kept m ρ c hl, out2 m ρ c hl]
  rfl

/-- A vector laid out as a row holds the vector. -/
theorem row_holds (b : FVec Ideal S128 .f32) (q : Fin 128) :
    shapeCast S1x128 b shapeCasts_S128_S1x128 (ix2 (0 : Fin 1) q) = b (ix1 q) :=
  BiasRead.vector_as_row_apply b shapeCasts_S128_S1x128 0 q

/-- The kernel's result buffer ends at the reference's result, as a function of the arguments. -/
theorem result_eq (hl : Launches) : W10 m ρ c (Proc.devRef .tc main_v66)
    = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [result_out m ρ c hl]
  exact (Ref.v98_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (shapeCast S1x128 (m ((c : Thread nD τ).loc main_arg4)) shapeCasts_S128_S1x128) (shapeCast S1x128 (m ((c : Thread nD τ).loc main_arg6)) shapeCasts_S128_S1x128) (row_holds _) (row_holds _)).symm

end Walk

end Cert.Gcn

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.RegionMatmul.lean ====
/-
  The two tiled matrix products of the network, each read as one function of the arrays it starts from.

  Each product multiplies a [50000, 128] array by a [128, 128] weight in five row tiles of 10000 rows. A tile's entry
  (p, q) is the sum over e of the tile's (p, e) times the weight's (e, q); row p of tile t is row 10000 t + p of the
  array; the five tiles cover the 50000 rows. So after the five tiles the output array is the product of the two arrays.
-/
import proofs.«165142_j19851338842494_1_alg».proof.Proof.Gen.KernelIdeal.Frame
import proofs.«165142_j19851338842494_1_alg».proof.Proof.Spec
import proofs.«165142_j19851338842494_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

namespace Matmul

/-- The offsets (0, 0) are the zero offsets: a tile's loads and its store go through the whole staging buffer. -/
theorem zero_offsets : (![0, 0] : Fin 2 → Nat) = fun _ => 0 := funext fun a => by fin_cases a <;> rfl

/-! ## Region 0: the first layer's product -/

/-- One row tile of the first product at (p, q): the change of float format is the identity on the extended reals and the
    accumulator starts at zero, so the entry is row p of the tile against column q of the weight. -/
theorem tile0_apply (x0 : Vec Ideal S10000x128 .f32) (x1 : Vec Ideal S128x128 .f32) (p : Fin 10000) (q : Fin 128) :
    k0_pay1 (F := Ideal) x0 x1 (ix2 p q) = ∑ e : Fin 128, x0 (ix2 p e) * x1 (ix2 e q) := by
  unfold k0_pay1
  exact Cert.LibMatmulNN.matmul_zero_apply dot_S10000x128_S128x128_S10000x128_1_0_0_1_n_n.wf none _ _ p q

/-- The windows' block indices over the five grid points: the left factor's window and the output's are both at block
    t on the row axis and block 0 on the column axis; the weight's window is at block (0, 0) at every point. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Entry (p, e) of the left factor's tile at point t is the left array at the row where the output's tile puts its
    row p, and at column e: the two tiles start at the same row, and the left tile spans all 128 columns. -/
theorem left0_apply (t : Fin cfg0.N) (p : Fin 10000) (q e : Fin 128) :
    (iblk0 (F := Ideal) V c 0 t : Vec Ideal S10000x128 .f32) (ix2 p e)
      = (V c main_arg0 : S50000x128.Idx → Elt Ideal .f32) (ix2 ((((cfg0.win 2).blk t).view.emb (ix2 p q) : S50000x128.Idx) 0) e) := by
  obtain ⟨e0, e1, e2, e3, e4, e5⟩ := idx_facts0 t
  unfold iblk0
  rw [View.read_apply]
  show V c main_arg0 (((cfg0.win 0).blk t).view.emb (ix2 p e)) = V c main_arg0 _
  refine congrArg (V c main_arg0) (funext fun a => Fin.ext ?_)
  match a with
  | ⟨0, _⟩ => show win0_0.index t (0 : Fin 2) * 10000 + 1 * p.val = win0_2.index t (0 : Fin 2) * 10000 + 1 * p.val; rw [e0]
  | ⟨1, _⟩ => show win0_0.index t (1 : Fin 2) * 128 + 1 * e.val = e.val; rw [e1]; omega

/-- The weight's block is the whole weight at every point: its entry (e, q) is the weight array at row e and at the
    column where the output's tile puts its column q, which is q. -/
theorem right0_apply (t : Fin cfg0.N) (p : Fin 10000) (q e : Fin 128) :
    (iblk0 (F := Ideal) V c 1 t : Vec Ideal S128x128 .f32) (ix2 e q)
      = (V c main_arg3 : S128x128.Idx → Elt Ideal .f32) (ix2 e ((((cfg0.win 2).blk t).view.emb (ix2 p q) : S50000x128.Idx) 1)) := by
  obtain ⟨e0, e1, e2, e3, e4, e5⟩ := idx_facts0 t
  unfold iblk0
  rw [View.read_apply]
  show V c main_arg3 (((cfg0.win 1).blk t).view.emb (ix2 e q)) = V c main_arg3 _
  refine congrArg (V c main_arg3) (funext fun a => Fin.ext ?_)
  match a with
  | ⟨0, _⟩ => show win0_1.index t (0 : Fin 2) * 128 + 1 * e.val = e.val; rw [e2]; omega
  | ⟨1, _⟩ => show win0_1.index t (1 : Fin 2) * 128 + 1 * q.val = win0_2.index t (1 : Fin 2) * 128 + 1 * q.val; rw [e3, e4]

/-- What point t writes back is tile t of the product of the two arrays as the region found them: entry (p, q) of the
    tile is the sum over e of the left tile's (p, e) times the weight's (e, q), and the left tile's row p is the
    array's row 10000 t + p. -/
theorem flushed0_eq (t : Fin cfg0.N) :
    (dat0 (F := Ideal) V c).flushed 2 t = ((cfg0.win 2).blk t).view.read (Elt Ideal)
      (matProd (n := 50000) (k := 128) (d := 128) (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x128) zero_offsets]
  funext j
  obtain ⟨p, q, rfl⟩ : ∃ (p : Fin 10000) (q : Fin 128), j = ix2 p q := ⟨j 0, j 1, eq_ix2 j⟩
  refine (tile0_apply _ _ p q).trans ?_
  show _ = matProd (n := 50000) (k := 128) (d := 128) (V c main_arg0) (V c main_arg3) (((cfg0.win 2).blk t).view.emb (ix2 p q))
  unfold matProd
  refine Finset.sum_congr rfl fun e _ => ?_
  exact congrArg₂ (fun (a b : Ideal .f32) => a * b) (left0_apply V c t p q e) (right0_apply V c t p q e)

/-- An index of the output array is in point t's tile iff each coordinate lies in the tile's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The five tiles cover the output array: row r lies in the tile of point r / 10000, and every tile spans all 128
    columns. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## Region 2: the second layer's product -/

/-- One row tile of the second product at (p, q): the reshape of the tile to its own shape changes nothing, the change of
    float format is the identity on the extended reals and the accumulator starts at zero, so again the entry is row p of
    the tile against column q of the weight. -/
theorem tile2_apply (x0 : Vec Ideal S10000x128 .f32) (x1 : Vec Ideal S128x128 .f32) (p : Fin 10000) (q : Fin 128) :
    k2_pay1 (F := Ideal) x0 x1 (ix2 p q) = ∑ e : Fin 128, x0 (ix2 p e) * x1 (ix2 e q) := by
  unfold k2_pay1
  rw [shapeCast_self]
  exact Cert.LibMatmulNN.matmul_zero_apply dot_S10000x128_S128x128_S10000x128_1_0_0_1_n_n.wf none _ _ p q

/-- The windows' block indices over the five grid points: the left factor's window and the output's are both at block
    t on the row axis and block 0 on the column axis; the weight's window is at block (0, 0) at every point. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- Entry (p, e) of the left factor's tile at point t is the left array at the row where the output's tile puts its
    row p, and at column e: the two tiles start at the same row, and the left tile spans all 128 columns. -/
theorem left2_apply (t : Fin cfg2.N) (p : Fin 10000) (q e : Fin 128) :
    (iblk2 (F := Ideal) V c 0 t : Vec Ideal S10000x128 .f32) (ix2 p e)
      = (V c main_v47 : S50000x128.Idx → Elt Ideal .f32) (ix2 ((((cfg2.win 2).blk t).view.emb (ix2 p q) : S50000x128.Idx) 0) e) := by
  obtain ⟨e0, e1, e2, e3, e4, e5⟩ := idx_facts2 t
  unfold iblk2
  rw [View.read_apply]
  show V c main_v47 (((cfg2.win 0).blk t).view.emb (ix2 p e)) = V c main_v47 _
  refine congrArg (V c main_v47) (funext fun a => Fin.ext ?_)
  match a with
  | ⟨0, _⟩ => show win2_0.index t (0 : Fin 2) * 10000 + 1 * p.val = win2_2.index t (0 : Fin 2) * 10000 + 1 * p.val; rw [e0]
  | ⟨1, _⟩ => show win2_0.index t (1 : Fin 2) * 128 + 1 * e.val = e.val; rw [e1]; omega

/-- The weight's block is the whole weight at every point: its entry (e, q) is the weight array at row e and at the
    column where the output's tile puts its column q, which is q. -/
theorem right2_apply (t : Fin cfg2.N) (p : Fin 10000) (q e : Fin 128) :
    (iblk2 (F := Ideal) V c 1 t : Vec Ideal S128x128 .f32) (ix2 e q)
      = (V c main_arg5 : S128x128.Idx → Elt Ideal .f32) (ix2 e ((((cfg2.win 2).blk t).view.emb (ix2 p q) : S50000x128.Idx) 1)) := by
  obtain ⟨e0, e1, e2, e3, e4, e5⟩ := idx_facts2 t
  unfold iblk2
  rw [View.read_apply]
  show V c main_arg5 (((cfg2.win 1).blk t).view.emb (ix2 e q)) = V c main_arg5 _
  refine congrArg (V c main_arg5) (funext fun a => Fin.ext ?_)
  match a with
  | ⟨0, _⟩ => show win2_1.index t (0 : Fin 2) * 128 + 1 * e.val = e.val; rw [e2]; omega
  | ⟨1, _⟩ => show win2_1.index t (1 : Fin 2) * 128 + 1 * q.val = win2_2.index t (1 : Fin 2) * 128 + 1 * q.val; rw [e3, e4]

/-- What point t writes back is tile t of the product of the two arrays as the region found them: entry (p, q) of the
    tile is the sum over e of the left tile's (p, e) times the weight's (e, q), and the left tile's row p is the
    array's row 10000 t + p. -/
theorem flushed2_eq (t : Fin cfg2.N) :
    (dat2 (F := Ideal) V c).flushed 2 t = ((cfg2.win 2).blk t).view.read (Elt Ideal)
      (matProd (n := 50000) (k := 128) (d := 128) (V c main_v47) (V c main_arg5)) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S128x128) zero_offsets]
  funext j
  obtain ⟨p, q, rfl⟩ : ∃ (p : Fin 10000) (q : Fin 128), j = ix2 p q := ⟨j 0, j 1, eq_ix2 j⟩
  refine (tile2_apply _ _ p q).trans ?_
  show _ = matProd (n := 50000) (k := 128) (d := 128) (V c main_v47) (V c main_arg5) (((cfg2.win 2).blk t).view.emb (ix2 p q))
  unfold matProd
  refine Finset.sum_congr rfl fun e _ => ?_
  exact congrArg₂ (fun (a b : Ideal .f32) => a * b) (left2_apply V c t p q e) (right2_apply V c t p q e)

/-- An index of the output array is in point t's tile iff each coordinate lies in the tile's range on its axis. -/
theorem mem_blk2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- The five tiles cover the output array: row r lies in the tile of point r / 10000, and every tile spans all 128
    columns. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

end Matmul

/-! ## The two products -/

/-- Region 0: after its five row tiles the output array holds the product of the two input arrays as the region found them. -/
theorem arr0 : (dat0 (F := Ideal) V c).arrAt 2 cfg0.N
    = matProd (n := 50000) (k := 128) (d := 128) (V c main_arg0) (V c main_arg3) :=
  (dat0 (F := Ideal) V c).arrAt_eq_of_cover 2 _ (fun t _ => Matmul.flushed0_eq V c t) Matmul.cover0

/-- Region 2: the same for the second layer's product. -/
theorem arr2 : (dat2 (F := Ideal) V c).arrAt 2 cfg2.N
    = matProd (n := 50000) (k := 128) (d := 128) (V c main_v47) (V c main_arg5) :=
  (dat2 (F := Ideal) V c).arrAt_eq_of_cover 2 _ (fun t _ => Matmul.flushed2_eq V c t) Matmul.cover2

end Cert.Gcn

end
-- ==== Proof.RegionBias.lean ====
/-
  The two bias-and-positive-part launches, tile by tile.

  Each launch walks five row tiles of 10000 rows of a [50000, 128] array. At a tile it adds the [1, 128] bias row to every
  row of the tile and keeps the larger of each entry and zero, and writes the tile back to the same rows of the output
  array. Read at an entry, the body is the left tile's entry plus the bias row's entry in the same column, then the
  maximum with zero; the left tile's entry (p, q) at grid point t is the left array's entry (10000 t + p, q), and the
  bias row is the whole [1, 128] array at every point. So what point t writes back is tile t of one function of the two
  arrays, the five tiles cover the output array, and the array ends holding that function.
-/
import proofs.«165142_j19851338842494_1_alg».proof.Proof.Gen.KernelIdeal.Frame
import proofs.«165142_j19851338842494_1_alg».proof.Proof.Spec
import proofs.«165142_j19851338842494_1_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

namespace BiasTiles

/-- The zero offsets of a whole-buffer access, spelt as the constant function. -/
theorem zero_offsets : (![0, 0] : Fin 2 → Nat) = fun _ => 0 := funext fun a => by fin_cases a <;> rfl

/-- Row p of the row tile at grid point n is row 10000 n + p of the array. -/
def tileRow (n : Nat) (hn : n < 5) (p : Fin 10000) : Fin 50000 := ⟨n * 10000 + p.val, by have := p.isLt; omega⟩

/-! ## Region 1: bias and positive part, tile by tile -/

/-- The body of region 1 read at row p, column q of its tile: the left block's entry plus the bias row's entry in
    column q, then the larger of that and zero. Both shape casts keep the shape, the sum and the maximum are entry by
    entry, the zero is the same at every entry, and the row broadcast down reads its one row. -/
theorem body1_apply (x0 : Vec Ideal S10000x128 .f32) (x1 : Vec Ideal S1x128 .f32) (p : Fin 10000) (q : Fin 128) :
    k1_pay1 (F := Ideal) x0 x1 (ix2 p q)
      = FloatOps.maximumf (FloatOps.addf (x0 (ix2 p q)) (x1 (ix2 (0 : Fin 1) q))) (FloatOps.ofBits .f32 0x00000000#32) := by
  unfold k1_pay1
  simp only [shapeCast_self]
  exact congrArg
    (fun z : Ideal .f32 => FloatOps.maximumf (F := Ideal) (φ := .f32) (FloatOps.addf (F := Ideal) (φ := .f32) (x0 (ix2 p q)) z)
      (FloatOps.ofBits .f32 0x00000000#32))
    (BiasRead.row_down_apply x1 broadcasts_S1x128_S10000x128 p q)

/-- The grid of region 1 has five points. -/
theorem point_lt1 (t : Fin cfg1.N) : t.val < 5 := t.isLt.trans_eq (show cfg1.N = 5 from N_1)

/-- The index maps of region 1, decided over its five points: the row tiles (the left input and the output) sit at block
    row t, block column 0; the bias row is the one block (0, 0) at every point. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the output tile at point t is entry (10000 t + p, q) of the output array. -/
theorem outTile1_emb (t : Fin cfg1.N) (p : Fin 10000) (q : Fin 128) :
    ((cfg1.win 2).blk t).view.emb (ix2 p q) = ix2 (tileRow t.val (point_lt1 t) p) q := by
  obtain ⟨-, -, -, -, e0, e1⟩ := index_facts1 t
  funext a; apply Fin.ext
  match a with
  | ⟨0, _⟩ => show win1_2.index t (0 : Fin 2) * 10000 + 1 * p.val = t.val * 10000 + p.val; rw [e0, Nat.one_mul]
  | ⟨1, _⟩ => show win1_2.index t (1 : Fin 2) * 128 + 1 * q.val = q.val; rw [e1]; omega

/-- Entry (p, q) of the left input's tile at point t is entry (10000 t + p, q) of the left array. -/
theorem leftTile1_apply (t : Fin cfg1.N) (p : Fin 10000) (q : Fin 128) :
    (iblk1 (F := Ideal) V c 0 t : Vec Ideal S10000x128 .f32) (ix2 p q)
      = (V c main_v45 : S50000x128.Idx → Ideal .f32) (ix2 (tileRow t.val (point_lt1 t) p) q) := by
  obtain ⟨e0, e1, -⟩ := index_facts1 t
  unfold iblk1
  rw [View.read_apply]
  show V c main_v45 _ = V c main_v45 _
  congr 1
  funext a; apply Fin.ext
  match a with
  | ⟨0, _⟩ => show win1_0.index t (0 : Fin 2) * 10000 + 1 * p.val = t.val * 10000 + p.val; rw [e0, Nat.one_mul]
  | ⟨1, _⟩ => show win1_0.index t (1 : Fin 2) * 128 + 1 * q.val = q.val; rw [e1]; omega

/-- The bias row's block at every point is the whole row: its entry (0, q) is the array's. -/
theorem biasRow1_apply (t : Fin cfg1.N) (q : Fin 128) :
    (iblk1 (F := Ideal) V c 1 t : Vec Ideal S1x128 .f32) (ix2 (0 : Fin 1) q)
      = (V c main_v46 : S1x128.Idx → Ideal .f32) (ix2 (0 : Fin 1) q) := by
  obtain ⟨-, -, e0, e1, -⟩ := index_facts1 t
  unfold iblk1
  rw [View.read_apply]
  show V c main_v46 _ = V c main_v46 _
  congr 1
  funext a; apply Fin.ext
  match a with
  | ⟨0, _⟩ => show win1_1.index t (0 : Fin 2) * 1 + 1 * (0 : Fin 1).val = (0 : Fin 1).val; rw [e0]; rfl
  | ⟨1, _⟩ => show win1_1.index t (1 : Fin 2) * 128 + 1 * q.val = q.val; rw [e1]; omega

/-- What point t writes back is tile t of the bias-and-positive-part of the two arrays as the region finds them. -/
theorem tile1_eq (t : Fin cfg1.N) :
    (dat1 (F := Ideal) V c).flushed 2 t
      = ((cfg1.win 2).blk t).view.read (Elt Ideal) (biasRelu (n := 50000) (d := 128) (V c main_v45) (V c main_v46)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q)
    = biasRelu (n := 50000) (d := 128) (V c main_v45) (V c main_v46) (((cfg1.win 2).blk t).view.emb (ix2 p q))
  rw [outTile1_emb t p q, biasRelu_apply]
  refine (body1_apply _ _ p q).trans ?_
  rw [leftTile1_apply V c t p q, biasRow1_apply V c t q]

/-- An index of the output array is in point t's tile iff each coordinate is in the tile's range on its axis. -/
theorem mem_tile1 (t : Fin cfg1.N) (i : S50000x128.Idx) :
    i ∈ ((cfg1.win 2).blk t).view.set
      ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every index of the output array is in some point's tile: row r is in tile r / 10000. -/
theorem tiles_cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, e0, e1⟩ := index_facts1 t
  refine ⟨t, flush1_2 t, ?_⟩
  rw [mem_tile1]
  intro a
  match a with
  | ⟨0, _⟩ =>
    show win1_2.index t (0 : Fin 2) * 10000 ≤ (i 0).val ∧ (i 0).val < win1_2.index t (0 : Fin 2) * 10000 + 10000
    rw [e0]; show (i 0).val / 10000 * 10000 ≤ (i 0).val ∧ (i 0).val < (i 0).val / 10000 * 10000 + 10000; omega
  | ⟨1, _⟩ =>
    show win1_2.index t (1 : Fin 2) * 128 ≤ (i 1).val ∧ (i 1).val < win1_2.index t (1 : Fin 2) * 128 + 128
    rw [e1]; omega

/-! ## Region 3: bias and positive part, tile by tile -/

/-- The body of region 3 read at row p, column q of its tile: the left block's entry plus the bias row's entry in
    column q, then the larger of that and zero. Both shape casts keep the shape, the sum and the maximum are entry by
    entry, the zero is the same at every entry, and the row broadcast down reads its one row. -/
theorem body3_apply (x0 : Vec Ideal S10000x128 .f32) (x1 : Vec Ideal S1x128 .f32) (p : Fin 10000) (q : Fin 128) :
    k3_pay1 (F := Ideal) x0 x1 (ix2 p q)
      = FloatOps.maximumf (FloatOps.addf (x0 (ix2 p q)) (x1 (ix2 (0 : Fin 1) q))) (FloatOps.ofBits .f32 0x00000000#32) := by
  unfold k3_pay1
  simp only [shapeCast_self]
  exact congrArg
    (fun z : Ideal .f32 => FloatOps.maximumf (F := Ideal) (φ := .f32) (FloatOps.addf (F := Ideal) (φ := .f32) (x0 (ix2 p q)) z)
      (FloatOps.ofBits .f32 0x00000000#32))
    (BiasRead.row_down_apply x1 broadcasts_S1x128_S10000x128 p q)

/-- The grid of region 3 has five points. -/
theorem point_lt3 (t : Fin cfg3.N) : t.val < 5 := t.isLt.trans_eq (show cfg3.N = 5 from N_3)

/-- The index maps of region 3, decided over its five points: the row tiles (the left input and the output) sit at block
    row t, block column 0; the bias row is the one block (0, 0) at every point. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the output tile at point t is entry (10000 t + p, q) of the output array. -/
theorem outTile3_emb (t : Fin cfg3.N) (p : Fin 10000) (q : Fin 128) :
    ((cfg3.win 2).blk t).view.emb (ix2 p q) = ix2 (tileRow t.val (point_lt3 t) p) q := by
  obtain ⟨-, -, -, -, e0, e1⟩ := index_facts3 t
  funext a; apply Fin.ext
  match a with
  | ⟨0, _⟩ => show win3_2.index t (0 : Fin 2) * 10000 + 1 * p.val = t.val * 10000 + p.val; rw [e0, Nat.one_mul]
  | ⟨1, _⟩ => show win3_2.index t (1 : Fin 2) * 128 + 1 * q.val = q.val; rw [e1]; omega

/-- Entry (p, q) of the left input's tile at point t is entry (10000 t + p, q) of the left array. -/
theorem leftTile3_apply (t : Fin cfg3.N) (p : Fin 10000) (q : Fin 128) :
    (iblk3 (F := Ideal) V c 0 t : Vec Ideal S10000x128 .f32) (ix2 p q)
      = (V c main_v61 : S50000x128.Idx → Ideal .f32) (ix2 (tileRow t.val (point_lt3 t) p) q) := by
  obtain ⟨e0, e1, -⟩ := index_facts3 t
  unfold iblk3
  rw [View.read_apply]
  show V c main_v61 _ = V c main_v61 _
  congr 1
  funext a; apply Fin.ext
  match a with
  | ⟨0, _⟩ => show win3_0.index t (0 : Fin 2) * 10000 + 1 * p.val = t.val * 10000 + p.val; rw [e0, Nat.one_mul]
  | ⟨1, _⟩ => show win3_0.index t (1 : Fin 2) * 128 + 1 * q.val = q.val; rw [e1]; omega

/-- The bias row's block at every point is the whole row: its entry (0, q) is the array's. -/
theorem biasRow3_apply (t : Fin cfg3.N) (q : Fin 128) :
    (iblk3 (F := Ideal) V c 1 t : Vec Ideal S1x128 .f32) (ix2 (0 : Fin 1) q)
      = (V c main_v62 : S1x128.Idx → Ideal .f32) (ix2 (0 : Fin 1) q) := by
  obtain ⟨-, -, e0, e1, -⟩ := index_facts3 t
  unfold iblk3
  rw [View.read_apply]
  show V c main_v62 _ = V c main_v62 _
  congr 1
  funext a; apply Fin.ext
  match a with
  | ⟨0, _⟩ => show win3_1.index t (0 : Fin 2) * 1 + 1 * (0 : Fin 1).val = (0 : Fin 1).val; rw [e0]; rfl
  | ⟨1, _⟩ => show win3_1.index t (1 : Fin 2) * 128 + 1 * q.val = q.val; rw [e1]; omega

/-- What point t writes back is tile t of the bias-and-positive-part of the two arrays as the region finds them. -/
theorem tile3_eq (t : Fin cfg3.N) :
    (dat3 (F := Ideal) V c).flushed 2 t
      = ((cfg3.win 2).blk t).view.read (Elt Ideal) (biasRelu (n := 50000) (d := 128) (V c main_v61) (V c main_v62)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (ix2 p q)
    = biasRelu (n := 50000) (d := 128) (V c main_v61) (V c main_v62) (((cfg3.win 2).blk t).view.emb (ix2 p q))
  rw [outTile3_emb t p q, biasRelu_apply]
  refine (body3_apply _ _ p q).trans ?_
  rw [leftTile3_apply V c t p q, biasRow3_apply V c t q]

/-- An index of the output array is in point t's tile iff each coordinate is in the tile's range on its axis. -/
theorem mem_tile3 (t : Fin cfg3.N) (i : S50000x128.Idx) :
    i ∈ ((cfg3.win 2).blk t).view.set
      ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- Every index of the output array is in some point's tile: row r is in tile r / 10000. -/
theorem tiles_cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨-, -, -, -, e0, e1⟩ := index_facts3 t
  refine ⟨t, flush3_2 t, ?_⟩
  rw [mem_tile3]
  intro a
  match a with
  | ⟨0, _⟩ =>
    show win3_2.index t (0 : Fin 2) * 10000 ≤ (i 0).val ∧ (i 0).val < win3_2.index t (0 : Fin 2) * 10000 + 10000
    rw [e0]; show (i 0).val / 10000 * 10000 ≤ (i 0).val ∧ (i 0).val < (i 0).val / 10000 * 10000 + 10000; omega
  | ⟨1, _⟩ =>
    show win3_2.index t (1 : Fin 2) * 128 ≤ (i 1).val ∧ (i 1).val < win3_2.index t (1 : Fin 2) * 128 + 128
    rw [e1]; omega

end BiasTiles

/-- Region 1: after its five row tiles the output array holds, entry by entry, the positive part of the input array plus the bias row. -/
theorem arr1 : (dat1 (F := Ideal) V c).arrAt 2 cfg1.N
    = biasRelu (n := 50000) (d := 128) (V c main_v45) (V c main_v46) :=
  (dat1 (F := Ideal) V c).arrAt_eq_of_cover 2 (biasRelu (n := 50000) (d := 128) (V c main_v45) (V c main_v46))
    (fun t _ => BiasTiles.tile1_eq V c t) BiasTiles.tiles_cover1

/-- Region 3: the same for the second layer. -/
theorem arr3 : (dat3 (F := Ideal) V c).arrAt 2 cfg3.N
    = biasRelu (n := 50000) (d := 128) (V c main_v61) (V c main_v62) :=
  (dat3 (F := Ideal) V c).arrAt_eq_of_cover 2 (biasRelu (n := 50000) (d := 128) (V c main_v61) (V c main_v62))
    (fun t _ => BiasTiles.tile3_eq V c t) BiasTiles.tiles_cover3

end Cert.Gcn

end
-- ==== Proof.lean ====
/-
  A two-layer graph-convolution network, tiled, against its plain reference: the two idealized programs end with equal results.

  Each layer is  relu(Â (X W) + b),  with Â the adjacency normalized by the inverse square roots of the degrees (self loops
  added). Both programs build Â's edge arrays, gather, scale and scatter-add along the edges by the same host operations;
  they differ only in the dense pieces. The kernel computes X W in five row tiles of 10000 rows (the operands passed through
  a narrower float format, which on the extended reals changes nothing, and multiplied into a zero accumulator), and adds
  the bias row and takes the positive part tile by tile; the reference does each with one whole-array operation. On the
  extended reals a row tile of the product is the rows of the whole product, and the bias epilogue is entrywise, so the
  tiles assemble into the whole-array results (Proof/RegionMatmul.lean, Proof/RegionBias.lean); everything between
  the launches is followed buffer by buffer (Proof/EdgeArrays.lean, Proof/HostWalk.lean) and is the reference's own
  function of the arguments (Proof/RefStages.lean). No law beyond the sums and maxima themselves is used, so the inputs'
  finiteness is never opened.

  The three frames: the two kernels' are the generated frame certificates; the reference's is its generated run with the
  result dropped. The idealization rewrote no operation, so its soundness statement is trivial.
-/
import proofs.«165142_j19851338842494_1_alg».proof.Defs
import proofs.«165142_j19851338842494_1_alg».proof.Proof.Gen.Kernel
import proofs.«165142_j19851338842494_1_alg».proof.Proof.Gen.Kernel.Frame
import proofs.«165142_j19851338842494_1_alg».proof.Proof.Gen.KernelIdeal
import proofs.«165142_j19851338842494_1_alg».proof.Proof.Gen.KernelIdeal.Frame
import proofs.«165142_j19851338842494_1_alg».proof.Proof.Gen.ReferenceIdeal
import proofs.«165142_j19851338842494_1_alg».proof.Proof.Gen.Pre_finite_inputs
import proofs.«165142_j19851338842494_1_alg».proof.Proof.Gen.ReferenceIdeal.Run
import proofs.«165142_j19851338842494_1_alg».proof.Proof.Gen.ReferenceIdeal.Read
import proofs.«165142_j19851338842494_1_alg».proof.Proof.KernelRun
import proofs.«165142_j19851338842494_1_alg».proof.Proof.HostWalk
import proofs.«165142_j19851338842494_1_alg».proof.Proof.RegionMatmul
import proofs.«165142_j19851338842494_1_alg».proof.Proof.RegionBias
import Idealize.ShloMosaic.Adequacy
import Idealize.ShloMosaic.Init

set_option maxRecDepth 16384

noncomputable section

namespace Cert.Proof

open Idealize.ShloMosaic Idealize.SL.Sem

/-- What the four launches leave in their output arrays. -/
theorem launches : Cert.Gcn.Launches :=
  ⟨Cert.Gcn.arr0, Cert.Gcn.arr1, Cert.Gcn.arr2, Cert.Gcn.arr3⟩

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's function of the arguments in their result buffers. -/
theorem algebraic : Cert.algebraic_KernelIdeal_ReferenceIdeal := by
  intro m ρ m' ρ' _ hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.result_eq m ρ c launches), (h c).2⟩)
      (Cert.Gcn.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v98_eq, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
